-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x64x16 : Shape := ⟨3, ![1024, 64, 16]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S512x1024 .f32) (main_arg1 : FVec F S1024x64x16 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S512x1024 : Shape := ⟨2, ![512, 1024]⟩
abbrev S1024x64x16 : Shape := ⟨3, ![1024, 64, 16]⟩
abbrev S1024x1024 : Shape := ⟨2, ![1024, 1024]⟩
abbrev S256x1024 : Shape := ⟨2, ![256, 1024]⟩
abbrev S512x64x16 : Shape := ⟨3, ![512, 64, 16]⟩
abbrev S64x16x512 : Shape := ⟨3, ![64, 16, 512]⟩
abbrev S64x1x512 : Shape := ⟨3, ![64, 1, 512]⟩
abbrev S2x16x512 : Shape := ⟨3, ![2, 16, 512]⟩
abbrev S2x1x512 : Shape := ⟨3, ![2, 1, 512]⟩
abbrev S1x16x512 : Shape := ⟨3, ![1, 16, 512]⟩
abbrev S16x512 : Shape := ⟨2, ![16, 512]⟩
abbrev S512x16 : Shape := ⟨2, ![512, 16]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1x1x512 : Shape := ⟨3, ![1, 1, 512]⟩
abbrev S64x512 : Shape := ⟨2, ![64, 512]⟩
abbrev S512x64 : Shape := ⟨2, ![512, 64]⟩
abbrev S512x1088 : Shape := ⟨2, ![512, 1088]⟩

abbrev nBuf : Space → Nat
  | .hbm => 12
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .bf16⟩
  | .hbm, ⟨4, _⟩ => ⟨S1024x1024, .bf16⟩
  | .hbm, ⟨5, _⟩ => ⟨S512x1024, .f32⟩
  | .hbm, ⟨6, _⟩ => ⟨S512x64x16, .f32⟩
  | .hbm, ⟨7, _⟩ => ⟨S64x16x512, .f32⟩
  | .hbm, ⟨8, _⟩ => ⟨S64x1x512, .f32⟩
  | .hbm, ⟨9, _⟩ => ⟨S64x512, .f32⟩
  | .hbm, ⟨10, _⟩ => ⟨S512x64, .f32⟩
  | .hbm, ⟨11, _⟩ => ⟨S512x1088, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S2x16x512, .f32⟩
  | .local _ .vmem, ⟨6, _⟩ => ⟨S2x16x512, .f32⟩
  | .local _ .vmem, ⟨7, _⟩ => ⟨S2x1x512, .f32⟩
  | .local _ .vmem, ⟨8, _⟩ => ⟨S2x1x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S1024x64x16_S1024x1024 : S1024x64x16.ShapeCasts S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x64x16 : S512x1024.ShapeCasts S512x64x16
  transposes_S512x64x16_S64x16x512_1_2_0 : S512x64x16.Transposes [1, 2, 0] S64x16x512
  inb_S2x16x512_S1x16x512_0_0_0 : ∀ a, (![0, 0, 0] : Fin 3 → Nat) a + S1x16x512.size a ≤ S2x16x512.size a
  h_S1x16x512 : 0 < S1x16x512.numel
  shapeCasts_S1x16x512_S16x512 : S1x16x512.ShapeCasts S16x512
  transposes_S16x512_p1_0_S512x16 : S16x512.Transposes [1, 0] S512x16
  slices_S16x512_o0_0_S1x512 : S16x512.Slices ![0, 0] S1x512
  shapeCasts_S1x512_S512 : S1x512.ShapeCasts S512
  slices_S512x16_o0_0_S512x1 : S512x16.Slices ![0, 0] S512x1
  shapeCasts_S512_S1x512 : S512.ShapeCasts S1x512
  broadcasts_S512x1_S512x512 : S512x1.Broadcasts S512x512
  broadcasts_S1x512_S512x512 : S1x512.Broadcasts S512x512
  slices_S16x512_o1_0_S1x512 : S16x512.Slices ![1, 0] S1x512
  slices_S512x16_o0_1_S512x1 : S512x16.Slices ![0, 1] S512x1
  slices_S16x512_o2_0_S1x512 : S16x512.Slices ![2, 0] S1x512
  slices_S512x16_o0_2_S512x1 : S512x16.Slices ![0, 2] S512x1
  slices_S16x512_o3_0_S1x512 : S16x512.Slices ![3, 0] S1x512
  slices_S512x16_o0_3_S512x1 : S512x16.Slices ![0, 3] S512x1
  slices_S16x512_o4_0_S1x512 : S16x512.Slices ![4, 0] S1x512
  slices_S512x16_o0_4_S512x1 : S512x16.Slices ![0, 4] S512x1
  slices_S16x512_o5_0_S1x512 : S16x512.Slices ![5, 0] S1x512
  slices_S512x16_o0_5_S512x1 : S512x16.Slices ![0, 5] S512x1
  slices_S16x512_o6_0_S1x512 : S16x512.Slices ![6, 0] S1x512
  slices_S512x16_o0_6_S512x1 : S512x16.Slices ![0, 6] S512x1
  slices_S16x512_o7_0_S1x512 : S16x512.Slices ![7, 0] S1x512
  slices_S512x16_o0_7_S512x1 : S512x16.Slices ![0, 7] S512x1
  slices_S16x512_o8_0_S1x512 : S16x512.Slices ![8, 0] S1x512
  slices_S512x16_o0_8_S512x1 : S512x16.Slices ![0, 8] S512x1
  slices_S16x512_o9_0_S1x512 : S16x512.Slices ![9, 0] S1x512
  slices_S512x16_o0_9_S512x1 : S512x16.Slices ![0, 9] S512x1
  slices_S16x512_o10_0_S1x512 : S16x512.Slices ![10, 0] S1x512
  slices_S512x16_o0_10_S512x1 : S512x16.Slices ![0, 10] S512x1
  slices_S16x512_o11_0_S1x512 : S16x512.Slices ![11, 0] S1x512
  slices_S512x16_o0_11_S512x1 : S512x16.Slices ![0, 11] S512x1
  slices_S16x512_o12_0_S1x512 : S16x512.Slices ![12, 0] S1x512
  slices_S512x16_o0_12_S512x1 : S512x16.Slices ![0, 12] S512x1
  slices_S16x512_o13_0_S1x512 : S16x512.Slices ![13, 0] S1x512
  slices_S512x16_o0_13_S512x1 : S512x16.Slices ![0, 13] S512x1
  slices_S16x512_o14_0_S1x512 : S16x512.Slices ![14, 0] S1x512
  slices_S512x16_o0_14_S512x1 : S512x16.Slices ![0, 14] S512x1
  slices_S16x512_o15_0_S1x512 : S16x512.Slices ![15, 0] S1x512
  slices_S512x16_o0_15_S512x1 : S512x16.Slices ![0, 15] S512x1
  reduces_S512x512_S512 : S512x512.Reduces [1] S512
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  shapeCasts_S1x512_S1x1x512 : S1x512.ShapeCasts S1x1x512
  inb_S2x16x512_S1x16x512_1_0_0 : ∀ a, (![1, 0, 0] : Fin 3 → Nat) a + S1x16x512.size a ≤ S2x16x512.size a
  inb_S2x1x512_S1x1x512_1_0_0 : ∀ a, (![1, 0, 0] : Fin 3 → Nat) a + S1x1x512.size a ≤ S2x1x512.size a
  shapeCasts_S64x1x512_S64x512 : S64x1x512.ShapeCasts S64x512
  transposes_S64x512_S512x64_1_0 : S64x512.Transposes [1, 0] S512x64
  concatenates_S512x1024_S512x64_S512x1088_d1 : Shape.Concatenates [S512x1024, S512x64] S512x1088 1
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .bf16 = 32 ∨ (Rect.block (s := S512x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x1024.size a
  hwx0_2 : ∀ i : grid0.Coords, EltTy.bits .f32 = 32 ∨ (Rect.block (s := S512x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x16x512.size a ≤ S64x16x512.size a
  hwx1_0 : ∀ i : grid1.Coords, EltTy.bits .f32 = 32 ∨ (Rect.block (s := S64x16x512) S2x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1x512.size a ≤ S64x1x512.size a
  hwx1_1 : ∀ i : grid1.Coords, EltTy.bits .f32 = 32 ∨ (Rect.block (s := S64x1x512) S2x1x512.size (cc1_transform_1 i) (hinb1_1 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S2x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2x1x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S512x1024 : Shape := ⟨2, ![512, 1024]⟩
abbrev S1024x64x16 : Shape := ⟨3, ![1024, 64, 16]⟩
abbrev S1024x1024 : Shape := ⟨2, ![1024, 1024]⟩
abbrev S512x64x16 : Shape := ⟨3, ![512, 64, 16]⟩
abbrev S512x1x64x16 : Shape := ⟨4, ![512, 1, 64, 16]⟩
abbrev S1x512x64x16 : Shape := ⟨4, ![1, 512, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x1088 : Shape := ⟨2, ![512, 1088]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S512x1x64x16, .f32⟩
  | .hbm, ⟨6, _⟩ => ⟨S1x512x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S_, .f32⟩
  | .hbm, ⟨18, _⟩ => ⟨S512x64, .f32⟩
  | .hbm, ⟨19, _⟩ => ⟨S512x64, .f32⟩
  | .hbm, ⟨20, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S512x1024_S512x64x16 : S512x1024.ShapeCasts S512x64x16
  bcast_S512x64x16_S512x1x64x16_0_2_3 : S512x64x16.BroadcastsInDim S512x1x64x16 (![0, 2, 3] : Fin 3 → Fin S512x1x64x16.rank)
  bcast_S512x64x16_S1x512x64x16_1_2_3 : S512x64x16.BroadcastsInDim S1x512x64x16 (![1, 2, 3] : Fin 3 → Fin S1x512x64x16.rank)
  bcast_S512x1x64x16_S512x512x64x16_0_1_2_3 : S512x1x64x16.BroadcastsInDim S512x512x64x16 (![0, 1, 2, 3] : Fin 4 → Fin S512x512x64x16.rank)
  bcast_S1x512x64x16_S512x512x64x16_0_1_2_3 : S1x512x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  bcast_S_S512x64 : S_.BroadcastsInDim S512x64 (![] : Fin 0 → Fin S512x64.rank)
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.WholeRun.lean ====
/-
  The kernel program's run with its RESULT named: from any launch memory every weakly fair execution of the program
  terminates without a fault, its two argument arrays end as launched, and its result array ends holding what the
  program's last stretch of host operations computes from the buffer contents the second region leaves.
  The program is five segments (host operations, the matrix-product region, host operations, the pairwise-distance
  region, host operations). The buffer contents at the six boundaries are the folds `W0 … W5` (a stretch of host
  operations applies its operations; a region replaces its arrays by what its write-backs leave), every unscoped buffer
  is owned at the current boundary's contents from the launch to the return, and at the return each buffer of the final
  state is read against `W5`: the result buffer directly, the two arguments walked back through the folds to the
  launch memory.
-/
import proofs.«114290_j2035814498340_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents `W5`, and the argument arrays end as launched. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c)⟩)

end Cert.KernelIdeal.Whole

end
-- ==== Proof.MatBody.lean ====
/-
  The first region's body at an entry. The body multiplies its 256 × 1024 block of the (narrowed) input by the whole
  1024 × 1024 (narrowed, flattened) table into a zero accumulator; over the extended reals entry `(p, q)` of the product
  is the plain sum `∑ k, x p k · w k q` over the one contracted coordinate.
-/
import proofs.«114290_j2035814498340_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.MatBody

open Cert.KernelIdeal Cert.KernelIdeal.Gen Idealize.ShloMosaic Idealize.ShloMosaic.ValueIdx

/-- The left operand's index under result entry `i` and contracted position `q`: row coordinate. -/
theorem lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- Its column coordinate is the contracted position. -/
theorem lhs_col (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's row coordinate is the contracted position. -/
theorem rhs_row (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- Its column coordinate is the result entry's. -/
theorem rhs_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry `(p, q)` of the body's product is `∑ k, x p k · w k q`. -/
theorem pay_apply (x : Vec Ideal S256x1024 .bf16) (w : Vec Ideal S1024x1024 .bf16) (p : Fin 256) (q : Fin 1024) :
    k0_pay1 (F := Ideal) x w (ix2 p q) = ∑ k : Fin 1024, x (ix2 p k) * w (ix2 k q) := by
  unfold k0_pay1
  rw [shapeCast_self, shapeCast_self]
  refine (Ideal.matmul_constant_zero_apply (φ₁ := .bf16) (φ₂ := .bf16) dot_S256x1024_S1024x1024_S256x1024_1_0_0_1_n_n none x w (ix2 p q)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_row _ _
    | ⟨1, _⟩ => exact (lhs_col _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_row _ _).trans hk
    | ⟨1, _⟩ => exact rhs_col _ _)
  rw [el, er]

end Cert.KernelIdeal.MatBody

end
-- ==== Proof.Region0.lean ====
/-
  The first region as a whole. Its grid has two points; point `t` multiplies rows `256 t … 256 t + 255` of the input by
  the whole table and writes the 256 × 1024 product back as block `t` of the output. Each such block is the restriction
  of ONE function of the two arrays the region reads, `prod a w i = ∑ k, a (i₀, k) · w (k, i₁)`, and the two blocks tile the
  output, so the output array ends holding `prod` of the region's two inputs.
-/
import proofs.«114290_j2035814498340_2_alg».proof.Proof.Gen.KernelIdeal.Frame
import proofs.«114290_j2035814498340_2_alg».proof.Proof.MatBody

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The zero offsets of a rectangle that is the whole buffer. -/
theorem hz : (![0, 0] : Fin 2 → Nat) = fun _ => 0 := funext fun a => by fin_cases a <;> rfl

/-- One term of an entry of the matrix product: row `r` of the left factor against column `q` of the right at
    position `k`. -/
def prodTerm (a : S512x1024.Idx → EReal) (w : S1024x1024.Idx → EReal) (r : Fin 512) (q k : Fin 1024) : EReal :=
  a (ix2 r k) * w (ix2 k q)

/-- The matrix product, entry by entry. -/
def prod (a : S512x1024.Idx → EReal) (w : S1024x1024.Idx → EReal) : S512x1024.Idx → EReal :=
  fun i => ∑ k : Fin 1024, prodTerm a w (i 0) (i 1) k

/-- The block indices at a grid point: the input's and the output's row blocks are the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region reads. -/
theorem flushed_eq (c : Dev nD) (t : Fin cfg0.N) :
    (dat0 V c).flushed 2 t = ((cfg0.win 2).blk t).view.read (Elt Ideal) (prod (V c main_v1) (V c main_v2)) := by
  show (cfg0.win 2).cut (grid0.coords t) ((dat0 V c).after 2 t) = _
  rw [after0_2]
  unfold out0_2
  rw [View.canon_unit_zero hz]
  simp only [View.ld_unit_zero (S := S256x1024) hz, View.ld_unit_zero (S := S1024x1024) hz]
  obtain ⟨e0, e1, e2, e3, e4, e5⟩ := idx_facts t
  funext j
  obtain ⟨p, q, rfl⟩ : ∃ (p : Fin 256) (q : Fin 1024), j = ix2 p q := ⟨j 0, j 1, eq_ix2 j⟩
  refine (MatBody.pay_apply (iblk0 V c 0 t) (iblk0 V c 1 t) p q).trans ?_
  show _ = ∑ k : Fin 1024, prodTerm (V c main_v1) (V c main_v2) ((((cfg0.win 2).blk t).view.emb (ix2 p q)) 0)
    ((((cfg0.win 2).blk t).view.emb (ix2 p q)) 1) k
  refine Finset.sum_congr rfl fun k _ => ?_
  unfold prodTerm
  have h0 : iblk0 V c 0 t (ix2 p k) = V c main_v1 (ix2 ((((cfg0.win 2).blk t).view.emb (ix2 p q)) 0) k) := by
    show V c main_v1 (((cfg0.win 0).blk t).view.emb (ix2 p k)) = _
    refine congrArg _ (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 1024 + 1 * k.val = k.val; omega
  have h1 : iblk0 V c 1 t (ix2 k q) = V c main_v2 (ix2 k ((((cfg0.win 2).blk t).view.emb (ix2 p q)) 1)) := by
    show V c main_v2 (((cfg0.win 1).blk t).view.emb (ix2 k q)) = _
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_2.index t (1 : Fin 2) * 1024 + 1 * q.val; omega
  rw [h0, h1]

/-- An index of the output is in point `t`'s block iff each coordinate is in the block's range on its axis. -/
theorem mem_blk (t : Fin cfg0.N) (i : S512x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v3).slice (win0_2.rect t)).set ↔ _
  rw [View.set_slice_whole, Rect.mem_set_unit]
  exact Iff.rfl

/-- Every index of the output lies in the block of the point numbered by its row divided by 256. -/
theorem cover (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  have hN : grid0.N = 2 := N_0
  have hlt : (i 0).val / 256 < grid0.N := by rw [hN]; omega
  obtain ⟨e0, e1, e2, e3, e4, e5⟩ := idx_facts ⟨(i 0).val / 256, hlt⟩
  have e4' : win0_2.index ⟨(i 0).val / 256, hlt⟩ (0 : Fin 2) = (i 0).val / 256 := e4
  refine ⟨⟨(i 0).val / 256, hlt⟩, flush0_2 _, ?_⟩
  rw [mem_blk]
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    rw [e4']; omega
  | ⟨1, _⟩ =>
    show win0_2.index ⟨(i 0).val / 256, hlt⟩ (1 : Fin 2) * 1024 ≤ (i 1).val ∧ (i 1).val < win0_2.index ⟨(i 0).val / 256, hlt⟩ (1 : Fin 2) * 1024 + 1024
    rw [e5]; omega

/-- The output array after the region: the product of the region's two inputs. -/
theorem final (c : Dev nD) : (dat0 V c).arrAt 2 cfg0.N = prod (V c main_v1) (V c main_v2) :=
  (dat0 V c).arrAt_eq_of_cover 2 _ (fun t _ => flushed_eq V c t) cover

end Cert.KernelIdeal.Region0

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.PairSpec.lean ====
/-
  The mathematics both programs compute, over the extended reals, stated once and free of either program.

  Fix one of the 64 feature groups and let `a c p` be entry `(c, p)` of its 16 × 512 table (channel `c`, sample `p`).
  • `term a p q c = |a c p − a c q|` is channel `c`'s share of the L1 distance between samples `p` and `q`;
  • `rowStat a p = (∑ q, exp (−∑ c, term a p q c)) − 1` is sample `p`'s statistic: the sum over all samples `q` of
    `exp` of minus the L1 distance, less the one unit the pair `(p, p)` contributes.
  `sum16` writes a sum over sixteen channels as the left-nested chain of additions started from zero, which is how a
  loop unrolled sixteen times accumulates it. `chan` reads one unrolled step at an entry `(p, q)` of the 512 × 512
  tile: a column of the transposed table spread along the lanes, minus a row of the table spread down the sublanes,
  in absolute value, is `term`.
-/
import Idealize.ShloMosaic.Lib.ValueIdx
import Idealize.ShloMosaic.Lib.ValueLayout
import Idealize.ShloMosaic.Lib.Pipeline.Value
import Idealize.ShloMosaic.PureOps.Ideal.Laws
import proofs.«114290_j2035814498340_2_alg».proof.Proof.LibKeepdims

noncomputable section

namespace Cert.PairSpec

open Idealize.ShloMosaic Idealize.ShloMosaic.ValueIdx

/-- Channel `c`'s share of the L1 distance between samples `p` and `q`. -/
def term (a : Fin 16 → Fin 512 → EReal) (p q : Fin 512) (c : Fin 16) : EReal :=
  FloatOps.absf (F := Ideal) (φ := .f32) (a c p - a c q)

/-- Sample `p`'s statistic: `∑ q, exp (−‖a · p − a · q‖₁)`, less one. -/
def rowStat (a : Fin 16 → Fin 512 → EReal) (p : Fin 512) : EReal :=
  (∑ q : Fin 512, Ideal.exp (-(∑ c : Fin 16, term a p q c))) - Ideal.ofBits .f32 0x3F800000#32

/-- A sum over sixteen channels is the left-nested chain of sixteen additions started from zero. -/
theorem sum16 {M : Type*} [AddCommMonoid M] (f : Fin 16 → M) :
    ∑ c : Fin 16, f c = 0 + f ⟨0, by decide⟩ + f ⟨1, by decide⟩ + f ⟨2, by decide⟩ + f ⟨3, by decide⟩ + f ⟨4, by decide⟩
      + f ⟨5, by decide⟩ + f ⟨6, by decide⟩ + f ⟨7, by decide⟩ + f ⟨8, by decide⟩ + f ⟨9, by decide⟩ + f ⟨10, by decide⟩
      + f ⟨11, by decide⟩ + f ⟨12, by decide⟩ + f ⟨13, by decide⟩ + f ⟨14, by decide⟩ + f ⟨15, by decide⟩ := by
  simp only [Fin.sum_univ_castSucc, Fin.sum_univ_zero]
  rfl

/-- One unrolled step at entry `(p, q)`: with `B` the transpose of the table `A`, column `c` of `B` spread along the
    lanes minus row `c` of `A` (recast as a vector and back to a row) spread down the sublanes, in absolute value, is
    `|A c p − A c q|`. -/
theorem chan (A : FVec Ideal ⟨2, ![16, 512]⟩ .f32) (B : FVec Ideal ⟨2, ![512, 16]⟩ .f32)
    (hB : ∀ (p : Fin 512) (c : Fin 16), B (ix2 p c) = A (ix2 c p)) (c : ℕ)
    (h1 : (⟨2, ![16, 512]⟩ : Shape).Slices ![c, 0] ⟨2, ![1, 512]⟩)
    (hc1 : (⟨2, ![1, 512]⟩ : Shape).ShapeCasts ⟨1, ![512]⟩) (hc2 : (⟨1, ![512]⟩ : Shape).ShapeCasts ⟨2, ![1, 512]⟩)
    (h2 : (⟨2, ![512, 16]⟩ : Shape).Slices ![0, c] ⟨2, ![512, 1]⟩)
    (hb1 : (⟨2, ![512, 1]⟩ : Shape).Broadcasts ⟨2, ![512, 512]⟩) (hb2 : (⟨2, ![1, 512]⟩ : Shape).Broadcasts ⟨2, ![512, 512]⟩)
    (p q : Fin 512) :
    absf (subf (broadcastTo ⟨2, ![512, 512]⟩ (extractStridedSlice ⟨2, ![512, 1]⟩ ![0, c] B h2) hb1)
        (broadcastTo ⟨2, ![512, 512]⟩
          (shapeCast ⟨2, ![1, 512]⟩ (shapeCast ⟨1, ![512]⟩ (extractStridedSlice ⟨2, ![1, 512]⟩ ![c, 0] A h1) hc1) hc2) hb2))
        (ix2 p q)
      = term (fun c p => A (ix2 c p)) p q ⟨c, Nat.lt_of_lt_of_le (Nat.lt_succ_self c) (h1.2 0)⟩ := by
  show FloatOps.absf (broadcastTo ⟨2, ![512, 512]⟩ (extractStridedSlice ⟨2, ![512, 1]⟩ ![0, c] B h2) hb1 (ix2 p q)
      - broadcastTo ⟨2, ![512, 512]⟩
          (shapeCast ⟨2, ![1, 512]⟩ (shapeCast ⟨1, ![512]⟩ (extractStridedSlice ⟨2, ![1, 512]⟩ ![c, 0] A h1) hc1) hc2) hb2 (ix2 p q))
    = FloatOps.absf (A (ix2 ⟨c, _⟩ p) - A (ix2 ⟨c, _⟩ q))
  rw [Cert.LibKeepdims.broadcastTo_a1_ab_apply, broadcastTo_1b_ab_apply, shapeCast_a_1a_apply, shapeCast_1a_a_apply,
    slice2_axis0_eq, slice2_axis1_eq, hB]
  rfl

end Cert.PairSpec

end
-- ==== Proof.DistBody.lean ====
/-
  The second region's body at an entry. A grid step holds two feature groups; for each the body takes the group's
  16 × 512 table `A` (channel by sample), transposes it once to `B`, and in sixteen unrolled steps accumulates, into a
  512 × 512 tile started at zero, `|B p c − A c q|` for entry `(p, q)` — the L1 distance between samples `p` and `q` —;
  then it takes `exp` of zero minus the tile, sums every row over its lanes, subtracts one and stores the 512 results as
  the group's row of the output block. Read at a sample `p` that row is `PairSpec.rowStat` of the group's table.
-/
import proofs.«114290_j2035814498340_2_alg».proof.Proof.Gen.KernelIdeal.Skeleton
import proofs.«114290_j2035814498340_2_alg».proof.Proof.PairSpec

set_option maxRecDepth 16384

noncomputable section

namespace Cert.KernelIdeal.DistBody

open Cert.KernelIdeal Cert.KernelIdeal.Gen Idealize.ShloMosaic Idealize.ShloMosaic.ValueIdx

/-- `exp` of a vector at an index, at the exact values. -/
theorem exp_apply {s : Shape} (a : FVec Ideal s .f32) (i : s.Idx) : exp a i = Ideal.exp (a i) := rfl

/-- The zero the tile starts from and the zero the tile is subtracted from. -/
theorem zero_word : (Scalar.ofBits (F := Ideal) .f32 0x00000000#32 : EReal) = 0 := Ideal.ofBits_zero_f32

/-- From the accumulated tile to the stored row: with `acc` the tile of L1 distances of the table `A`, the row
    `(∑ lanes of exp (0 − acc)) − 1`, recast to the block's `[1, 1, 512]`, reads at sample `p` the statistic of `p`. -/
theorem finish (A : FVec Ideal S16x512 .f32) (acc : FVec Ideal S512x512 .f32)
    (hacc : ∀ p q : Fin 512, acc (ix2 p q) = ∑ c : Fin 16, PairSpec.term (fun c p => A (ix2 c p)) p q c)
    (u v : Fin 1) (p : Fin 512) :
    shapeCast S1x1x512 (shapeCast S1x512 (subf
        (multiReduction .add [1] S512 (exp (subf (broadcast S512x512 (Scalar.ofBits .f32 0x00000000#32)) acc)) 0x00000000#32
          reduces_S512x512_S512 (.inl rfl) rfl)
        (broadcast S512 (Scalar.ofBits .f32 0x3F800000#32))) shapeCasts_S512_S1x512) shapeCasts_S1x512_S1x1x512 (ix3 u v p)
      = PairSpec.rowStat (fun c p => A (ix2 c p)) p := by
  refine (shapeCast_ab_1ab_apply _ _ u v p).trans ?_
  refine (shapeCast_a_1a_apply _ _ v p).trans ?_
  refine (subf_apply _ _ _).trans ?_
  unfold PairSpec.rowStat
  refine congrArg₂ (· - ·) ?_ rfl
  refine (Cert.LibKeepdims.multiReduction_add_last_ab _ _ _ _ _ p).trans ?_
  refine Finset.sum_congr rfl fun q _ => ?_
  rw [exp_apply, subf_apply, broadcast_apply, zero_word, zero_sub, hacc]

/-- The first group of the block: the stored row at sample `p`. -/
theorem slab0 (y : Vec Ideal S1x16x512 .f32) (u v : Fin 1) (p : Fin 512) :
    k1_pay10 (k1_pay2 y) (k1_pay3 y) (k1_pay7 (k1_pay2 y) (k1_pay3 y) (k1_pay4 y) (k1_pay5 y) (k1_pay6 y))
        (k1_pay8 (k1_pay2 y)) (k1_pay9 (k1_pay3 y)) (ix3 u v p)
      = PairSpec.rowStat (fun c p => y (ix3 (0 : Fin 1) c p)) p := by
  have hA : ∀ (c : Fin 16) (p : Fin 512), k1_pay2 y (ix2 c p) = y (ix3 (0 : Fin 1) c p) := fun c p => by
    unfold k1_pay2; exact shapeCast_1ab_ab_apply y _ c p
  have hB : ∀ (p : Fin 512) (c : Fin 16), k1_pay3 y (ix2 p c) = k1_pay2 y (ix2 c p) := fun p c => by
    unfold k1_pay3; exact transpose_ix2_apply _ _ p c
  rw [show (fun c p => y (ix3 (0 : Fin 1) c p)) = fun c p => k1_pay2 y (ix2 c p) from
    funext fun c => funext fun p => (hA c p).symm]
  unfold k1_pay10 k1_pay7 k1_pay4 k1_pay5 k1_pay6 k1_pay8 k1_pay9
  generalize k1_pay2 y = A at hB ⊢
  generalize k1_pay3 y = B at hB ⊢
  dsimp only
  refine finish A _ (fun p q => ?_) u v p
  rw [PairSpec.sum16]
  simp only [addf_apply, broadcast_apply, PairSpec.chan A B hB, zero_word]

/-- The second group of the block: the stored row at sample `p`. -/
theorem slab1 (y : Vec Ideal S1x16x512 .f32) (u v : Fin 1) (p : Fin 512) :
    k1_pay1 (k1_pay11 y) (k1_pay12 y)
        (k1_pay17 (k1_pay11 y) (k1_pay12 y) (k1_pay15 (k1_pay11 y) (k1_pay12 y) (k1_pay13 (F := Ideal)) (k1_pay14 y))
          (k1_pay16 (k1_pay11 y) (k1_pay12 y)))
        (k1_pay18 (k1_pay11 y)) (k1_pay19 (k1_pay12 y)) (ix3 u v p)
      = PairSpec.rowStat (fun c p => y (ix3 (0 : Fin 1) c p)) p := by
  have hA : ∀ (c : Fin 16) (p : Fin 512), k1_pay11 y (ix2 c p) = y (ix3 (0 : Fin 1) c p) := fun c p => by
    unfold k1_pay11; exact shapeCast_1ab_ab_apply y _ c p
  have hB : ∀ (p : Fin 512) (c : Fin 16), k1_pay12 y (ix2 p c) = k1_pay11 y (ix2 c p) := fun p c => by
    unfold k1_pay12; exact transpose_ix2_apply _ _ p c
  rw [show (fun c p => y (ix3 (0 : Fin 1) c p)) = fun c p => k1_pay11 y (ix2 c p) from
    funext fun c => funext fun p => (hA c p).symm]
  unfold k1_pay1 k1_pay17 k1_pay15 k1_pay13 k1_pay14 k1_pay16 k1_pay18 k1_pay19
  generalize k1_pay11 y = A at hB ⊢
  generalize k1_pay12 y = B at hB ⊢
  dsimp only
  refine finish A _ (fun p q => ?_) u v p
  rw [PairSpec.sum16]
  simp only [addf_apply, broadcast_apply, PairSpec.chan A B hB, zero_word]

end Cert.KernelIdeal.DistBody

end
-- ==== Proof.Region1.lean ====
/-
  The second region as a whole. Its grid has 32 points; point `t` reads feature groups `2 t` and `2 t + 1` of the
  64 × 16 × 512 array (group, channel, sample) and writes the two groups' rows of statistics back as block `t` of the
  64 × 1 × 512 output. The body's two stores are the two rows of one function of the block it loaded (`blockStat`), a
  block of the output is the restriction of one function of the whole input array (`stat`), and the 32 blocks tile the
  output: the output array ends holding, at `(b, 0, n)`, the statistic `PairSpec.rowStat` of group `b`'s table at
  sample `n`.
-/
import proofs.«114290_j2035814498340_2_alg».proof.Proof.Gen.KernelIdeal.Frame
import proofs.«114290_j2035814498340_2_alg».proof.Proof.DistBody

set_option maxRecDepth 16384

noncomputable section

namespace Cert.KernelIdeal.Region1

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The statistics of every group of a (group, channel, sample) array, laid out (group, 1, sample). -/
def stat (A : S64x16x512.Idx → EReal) : S64x1x512.Idx → EReal :=
  fun y => PairSpec.rowStat (fun c p => A (ix3 (y 0) c p)) (y 2)

/-- The same for the two groups of one block. -/
def blockStat (x : S2x16x512.Idx → EReal) : S2x1x512.Idx → EReal :=
  fun y => PairSpec.rowStat (fun c p => x (ix3 (y 0) c p)) (y 2)

/-- What the body leaves in its output block: both stores are rows of `blockStat` of the loaded block. -/
theorem out_eq (x : Vec Ideal S2x16x512 .f32) : out1_1 x = blockStat x := by
  funext y
  unfold out1_1
  refine View.canon_apply_of_pieces (Val := Elt Ideal) (blockStat x) _ ?_ y (cover1_1 _ _ y)
  intro pc hpc z
  simp only [List.mem_cons, List.not_mem_nil, or_false] at hpc
  rcases hpc with rfl | rfl
  · obtain ⟨u, v, p, rfl⟩ : ∃ (u v : Fin 1) (p : Fin 512), z = ix3 u v p := ⟨z 0, z 1, z 2, eq_ix3 z⟩
    refine (DistBody.slab1 (View.ld x r1_2) u v p).trans ?_
    show _ = PairSpec.rowStat (fun c p' => x (ix3 ((r1_3.emb (ix3 u v p)) 0) c p')) ((r1_3.emb (ix3 u v p)) 2)
    have hu : u.val = 0 := by omega
    have e2 : (r1_3.emb (ix3 u v p)) 2 = p := Fin.ext (by show 0 + 1 * p.val = p.val; omega)
    rw [e2]
    refine congrArg (fun a => PairSpec.rowStat a p) (funext fun c => funext fun p' => ?_)
    show x (r1_2.emb (ix3 (0 : Fin 1) c p')) = _
    refine congrArg x (funext fun a => Fin.ext ?_)
    match a with
    | ⟨0, _⟩ => show 1 + 1 * 0 = 1 + 1 * u.val; omega
    | ⟨1, _⟩ => show 0 + 1 * c.val = c.val; omega
    | ⟨2, _⟩ => show 0 + 1 * p'.val = p'.val; omega
  · obtain ⟨u, v, p, rfl⟩ : ∃ (u v : Fin 1) (p : Fin 512), z = ix3 u v p := ⟨z 0, z 1, z 2, eq_ix3 z⟩
    refine (DistBody.slab0 (View.ld x r1_0) u v p).trans ?_
    show _ = PairSpec.rowStat (fun c p' => x (ix3 ((r1_1.emb (ix3 u v p)) 0) c p')) ((r1_1.emb (ix3 u v p)) 2)
    have hu : u.val = 0 := by omega
    have e2 : (r1_1.emb (ix3 u v p)) 2 = p := Fin.ext (by show 0 + 1 * p.val = p.val; omega)
    rw [e2]
    refine congrArg (fun a => PairSpec.rowStat a p) (funext fun c => funext fun p' => ?_)
    show x (r1_0.emb (ix3 (0 : Fin 1) c p')) = _
    refine congrArg x (funext fun a => Fin.ext ?_)
    match a with
    | ⟨0, _⟩ => show 0 + 1 * 0 = 0 + 1 * u.val; omega
    | ⟨1, _⟩ => show 0 + 1 * c.val = c.val; omega
    | ⟨2, _⟩ => show 0 + 1 * p'.val = p'.val; omega

/-- The block indices at a grid point: both windows' group blocks are the point's number, every other block index is
    zero. -/
theorem idx_facts : ∀ t : Fin cfg1.N, win1_0.index t (0 : Fin 3) = t.val ∧ win1_0.index t (1 : Fin 3) = 0
    ∧ win1_0.index t (2 : Fin 3) = 0 ∧ win1_1.index t (0 : Fin 3) = t.val ∧ win1_1.index t (1 : Fin 3) = 0
    ∧ win1_1.index t (2 : Fin 3) = 0 :=
  (by decide +kernel : ∀ t : Fin grid1.N, _)

/-- What point `t` writes back is block `t` of the statistics of the array the region reads. -/
theorem flushed_eq (c : Dev nD) (t : Fin cfg1.N) :
    (dat1 V c).flushed 1 t = ((cfg1.win 1).blk t).view.read (Elt Ideal) (stat (V c main_v5)) := by
  show (cfg1.win 1).cut (grid1.coords t) ((dat1 V c).after 1 t) = _
  rw [after1_1, out_eq]
  obtain ⟨e0, e1, e2, e3, e4, e5⟩ := idx_facts t
  funext j
  show PairSpec.rowStat (fun ch p => iblk1 V c 0 t (ix3 (j 0) ch p)) (j 2)
    = PairSpec.rowStat (fun ch p => V c main_v5 (ix3 ((((cfg1.win 1).blk t).view.emb j) 0) ch p)) ((((cfg1.win 1).blk t).view.emb j) 2)
  have hj2 : (j 2).val < 512 := (j 2).isLt
  have e : (((cfg1.win 1).blk t).view.emb j) 2 = j 2 :=
    Fin.ext (by show win1_1.index t (2 : Fin 3) * 512 + 1 * (j 2).val = (j 2).val; omega)
  rw [e]
  refine congrArg (fun a => PairSpec.rowStat a (j 2)) (funext fun ch => funext fun p => ?_)
  show V c main_v5 (((cfg1.win 0).blk t).view.emb (ix3 (j 0) ch p)) = _
  refine congrArg _ (funext fun a => Fin.ext ?_)
  match a with
  | ⟨0, _⟩ => show win1_0.index t (0 : Fin 3) * 2 + 1 * (j 0).val = win1_1.index t (0 : Fin 3) * 2 + 1 * (j 0).val; omega
  | ⟨1, _⟩ => show win1_0.index t (1 : Fin 3) * 16 + 1 * ch.val = ch.val; omega
  | ⟨2, _⟩ => show win1_0.index t (2 : Fin 3) * 512 + 1 * p.val = p.val; omega

/-- An index of the output is in point `t`'s block iff each coordinate is in the block's range on its axis. -/
theorem mem_blk (t : Fin cfg1.N) (i : S64x1x512.Idx) :
    i ∈ ((cfg1.win 1).blk t).view.set ↔ ∀ a : Fin 3, win1_1.index t a * S2x1x512.size a ≤ (i a).val ∧ (i a).val < win1_1.index t a * S2x1x512.size a + S2x1x512.size a := by
  show i ∈ ((View.whole main_v6).slice (win1_1.rect t)).set ↔ _
  rw [View.set_slice_whole, Rect.mem_set_unit]
  exact Iff.rfl

/-- Every index of the output lies in the block of the point numbered by its group divided by two. -/
theorem cover (i : S64x1x512.Idx) : ∃ t : Fin cfg1.N, (cfg1.win 1).flush t = true ∧ i ∈ ((cfg1.win 1).blk t).view.set := by
  have hi0 : (i 0).val < 64 := (i 0).isLt
  have hi1 : (i 1).val < 1 := (i 1).isLt
  have hi2 : (i 2).val < 512 := (i 2).isLt
  have hN : grid1.N = 32 := N_1
  have hlt : (i 0).val / 2 < grid1.N := by rw [hN]; omega
  obtain ⟨e0, e1, e2, e3, e4, e5⟩ := idx_facts ⟨(i 0).val / 2, hlt⟩
  have e3' : win1_1.index ⟨(i 0).val / 2, hlt⟩ (0 : Fin 3) = (i 0).val / 2 := e3
  refine ⟨⟨(i 0).val / 2, hlt⟩, flush1_1 _, ?_⟩
  rw [mem_blk]
  intro a
  match a with
  | ⟨0, _⟩ =>
    show win1_1.index ⟨(i 0).val / 2, hlt⟩ (0 : Fin 3) * 2 ≤ (i 0).val ∧ (i 0).val < win1_1.index ⟨(i 0).val / 2, hlt⟩ (0 : Fin 3) * 2 + 2
    rw [e3']; omega
  | ⟨1, _⟩ =>
    show win1_1.index ⟨(i 0).val / 2, hlt⟩ (1 : Fin 3) * 1 ≤ (i 1).val ∧ (i 1).val < win1_1.index ⟨(i 0).val / 2, hlt⟩ (1 : Fin 3) * 1 + 1
    rw [e4]; omega
  | ⟨2, _⟩ =>
    show win1_1.index ⟨(i 0).val / 2, hlt⟩ (2 : Fin 3) * 512 ≤ (i 2).val ∧ (i 2).val < win1_1.index ⟨(i 0).val / 2, hlt⟩ (2 : Fin 3) * 512 + 512
    rw [e5]; omega

/-- The output array after the region: the statistics of the region's input. -/
theorem final (c : Dev nD) : (dat1 V c).arrAt 1 cfg1.N = stat (V c main_v5) :=
  (dat1 V c).arrAt_eq_of_cover 1 _ (fun t _ => flushed_eq V c t) cover

end Cert.KernelIdeal.Region1

end
-- ==== Proof.RefSide.lean ====
/-
  The reference at an entry. With `M` the 512 × 64 × 16 array of projected features (the product of the input with the
  flattened table, re-laid), the reference spreads `M` along a new second and a new first axis, subtracts, takes absolute
  values, sums over the 16 channels, negates, takes `exp`, sums over the second sample axis and subtracts one. At
  `(n, b)` that is `PairSpec.rowStat` of group `b`'s table `(c, p) ↦ M p b c`, at sample `n`.
-/
import proofs.«114290_j2035814498340_2_alg».proof.Proof.Gen.ReferenceIdeal.Read
import proofs.«114290_j2035814498340_2_alg».proof.Proof.PairSpec

noncomputable section

namespace Cert.ReferenceIdeal.RefSide

open Cert.ReferenceIdeal Cert.ReferenceIdeal.Gen Cert.ReferenceIdeal.Read Idealize.ShloMosaic Idealize.ShloMosaic.ValueIdx

/-- The reference's pairwise statistic at `(n, b)`. -/
theorem stat_apply (x0 : (⟨S512x1024, .f32⟩ : BufTy).Contents (Elt Ideal)) (x1 : (⟨S1024x64x16, .f32⟩ : BufTy).Contents (Elt Ideal))
    (n : Fin 512) (b : Fin 64) :
    val_main_v14 (F := Ideal) x0 x1 (ix2 n b)
      = PairSpec.rowStat (fun c p => val_main_v2 (F := Ideal) x0 x1 (ix3 p b c)) n := by
  rw [val_main_v14_apply, val_main_v12_apply, val_main_v13_apply, val_main_cst_1_apply, val_main_cst_0_apply]
  unfold PairSpec.rowStat
  show (Ideal.ofBits .f32 0x00000000#32 + ∑ k : Fin 512, _) - Ideal.ofBits .f32 0x3F800000#32 = _
  rw [Ideal.ofBits_zero_f32, zero_add]
  refine congrArg₂ (· - ·) (Finset.sum_congr rfl fun q _ => ?_) rfl
  rw [val_main_v11_apply, val_main_v10_apply, val_main_v9_apply, val_main_cst_apply]
  show Ideal.exp (-(Ideal.ofBits .f32 0x00000000#32 + ∑ k : Fin 16, _)) = _
  rw [Ideal.ofBits_zero_f32, zero_add]
  refine congrArg Ideal.exp (congrArg Neg.neg (Finset.sum_congr rfl fun c _ => ?_))
  rw [val_main_v8_apply, val_main_v7_apply, val_main_v5_apply, val_main_v3_apply, val_main_v6_apply, val_main_v4_apply]
  unfold PairSpec.term
  have e1 : idx_main_v3 (idx_main_v5 (idx_main_v9 (idx_main_v12 (ix2 n b) q) c)) = ix3 n b c :=
    funext fun a => Fin.ext (by match a with | ⟨0, _⟩ => rfl | ⟨1, _⟩ => rfl | ⟨2, _⟩ => rfl)
  have e2 : idx_main_v4 (idx_main_v6 (idx_main_v9 (idx_main_v12 (ix2 n b) q) c)) = ix3 q b c :=
    funext fun a => Fin.ext (by match a with | ⟨0, _⟩ => rfl | ⟨1, _⟩ => rfl | ⟨2, _⟩ => rfl)
  rw [e1, e2]
  rfl

end Cert.ReferenceIdeal.RefSide

end
-- ==== Proof.LibGroupLayout.lean ====
/-
  Two layout steps of rank-3 arrays read at an index given by coordinates — a general module: both lemmas are general
  in the extents and in the element type.
  • `shapeCast_a1b_ab_apply`: an `[a, 1, b]` array with its middle unit axis dropped, `[a, 1, b] → [a, b]`, reads at
    `(i, k)` the operand at `(i, 0, k)`;
  • `transpose_ix3_120_apply`: an `[a, b, c]` array transposed by the permutation `[1, 2, 0]` to `[b, c, a]` reads at
    `(j, k, i)` the operand at `(i, j, k)`.
-/
import Idealize.ShloMosaic.Lib.Pipeline.Value
import Idealize.ShloMosaic.Lib.ValueIdx

namespace Cert.LibGroupLayout

open Idealize.ShloMosaic Idealize.ShloMosaic.ValueIdx

variable {α : Type}

/-- Dropping the middle unit axis keeps the row-major position: `(i, 0, k)` sits where `(i, k)` does. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (k : Fin b) :
    shapeCast ⟨2, ![a, b]⟩ x h (ix2 i k) = x (ix3 i (0 : Fin 1) k) :=
  shapeCast_apply x h _ _ (by
    rw [Shape.rowMajor_val_three, Shape.rowMajor_val_two]
    show (i.val * 1 + 0) * b + k.val = i.val * b + k.val
    rw [Nat.mul_one, Nat.add_zero])

/-- The cyclic transpose `[1, 2, 0]`: result axis 0 is source axis 1, result axis 1 is source axis 2, result axis 2 is
    source axis 0. -/
theorem transpose_ix3_120_apply {a b c : ℕ} (x : (⟨3, ![a, b, c]⟩ : Shape).Idx → α)
    (h : (⟨3, ![a, b, c]⟩ : Shape).Transposes [1, 2, 0] ⟨3, ![b, c, a]⟩) (j : Fin b) (k : Fin c) (i : Fin a) :
    transpose ⟨3, ![b, c, a]⟩ [1, 2, 0] x h (ix3 j k i) = x (ix3 i j k) :=
  transpose_apply _ x h _ _ fun d => match d with | ⟨0, _⟩ => rfl | ⟨1, _⟩ => rfl | ⟨2, _⟩ => rfl

end Cert.LibGroupLayout
-- ==== Proof.KernelValue.lean ====
/-
  The kernel program's result as a function of its arguments, and its equality with the reference's.

  Reading the boundary contents of the run back from the result buffer: the last stretch of host operations joins the
  input `x` with the second region's output, re-laid from (group, 1, sample) to (sample, group); the second region's
  output is the pairwise statistic (`Region1.stat`) of its input; that input is the first region's output, re-laid from
  (sample, 64·16) to (group, channel, sample); the first region's output is the product (`Region0.prod`) of its inputs;
  and those are `x` and the flattened table with their formats narrowed, which changes no value over the extended
  reals. The reference computes the same product (as one contraction), re-lays it to (sample, group, channel), and its
  statistic at `(n, b)` is the same `PairSpec.rowStat` of group `b`'s table at sample `n` (`RefSide.stat_apply`): the
  two result arrays are equal, entry by entry, with no condition on the inputs.
-/
import proofs.«114290_j2035814498340_2_alg».proof.Proof.WholeRun
import proofs.«114290_j2035814498340_2_alg».proof.Proof.Region0
import proofs.«114290_j2035814498340_2_alg».proof.Proof.Region1
import proofs.«114290_j2035814498340_2_alg».proof.Proof.RefSide
import proofs.«114290_j2035814498340_2_alg».proof.Proof.LibGroupLayout
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable (m : (ℓ : Loc nD τ sig) → Buf (Elt Ideal) ℓ) (ρ : Dev nD → PrngReg)

/-! ## The host stretches -/

/-- The first region's left input is `x`: narrowing the format changes no value. -/
theorem in_v1 (c : Dev nD) :
    (V1 m ρ c main_v1 : S512x1024.Idx → EReal) = m ((c : Thread nD τ).loc main_arg0) := by
  show StableHlo.after hostOps0 (W0 m ρ c) (Proc.devRef .tc main_v1) = _
  after_results
  rfl

/-- Its right input is the table flattened to 1024 × 1024. -/
theorem in_v2 (c : Dev nD) :
    (V1 m ρ c main_v2 : S1024x1024.Idx → EReal)
      = shapeCast S1024x1024 (m ((c : Thread nD τ).loc main_arg1)) shapeCasts_S1024x64x16_S1024x1024 := by
  show StableHlo.after hostOps0 (W0 m ρ c) (Proc.devRef .tc main_v2) = _
  after_results
  rfl

/-- The second region's input is the first region's output re-laid to (group, channel, sample). -/
theorem in_v5 (c : Dev nD) :
    (V3 m ρ c main_v5 : S64x16x512.Idx → EReal)
      = transpose S64x16x512 [1, 2, 0]
          (shapeCast S512x64x16 (W2 m ρ c (Proc.devRef .tc main_v3)) shapeCasts_S512x1024_S512x64x16)
          transposes_S512x64x16_S64x16x512_1_2_0 := by
  show StableHlo.after hostOps1 (W2 m ρ c) (Proc.devRef .tc main_v5) = _
  after_results
  rfl

/-- The result is `x` joined with the second region's output re-laid to (sample, group). -/
theorem out_v9 (c : Dev nD) :
    (W5 m ρ c (Proc.devRef .tc main_v9) : S512x1088.Idx → EReal)
      = concatenate S512x1088 1 [⟨S512x1024, W4 m ρ c (Proc.devRef .tc main_arg0)⟩,
          ⟨S512x64, transpose S512x64 [1, 0]
            (shapeCast S64x512 (W4 m ρ c (Proc.devRef .tc main_v6)) shapeCasts_S64x1x512_S64x512)
            transposes_S64x512_S512x64_1_0⟩] concatenates_S512x1024_S512x64_S512x1088_d1 := by
  show StableHlo.after hostOps2 (W4 m ρ c) (Proc.devRef .tc main_v9) = _
  after_results
  rfl

/-- No operation and no region writes `x`: before the last stretch it is as launched. -/
theorem kept_arg0 (c : Dev nD) : W4 m ρ c (Proc.devRef .tc main_arg0) = m ((c : Thread nD τ).loc main_arg0) := by
  rw [W4_of_ne m ρ c main_arg0 (by decide)]
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-! ## The regions -/

/-- The first region's output: the product of `x` with the flattened table. -/
theorem arr3 (c : Dev nD) :
    (W2 m ρ c (Proc.devRef .tc main_v3) : S512x1024.Idx → EReal)
      = Region0.prod (m ((c : Thread nD τ).loc main_arg0))
          (shapeCast S1024x1024 (m ((c : Thread nD τ).loc main_arg1)) shapeCasts_S1024x64x16_S1024x1024) :=
  (W2_arr m ρ c 2).trans ((Region0.final (V1 m ρ) c).trans
    (congrArg₂ Region0.prod (in_v1 m ρ c) (in_v2 m ρ c)))

/-- The second region's output: the pairwise statistics of its input. -/
theorem arr6 (c : Dev nD) :
    (W4 m ρ c (Proc.devRef .tc main_v6) : S64x1x512.Idx → EReal) = Region1.stat (V3 m ρ c main_v5) :=
  (W4_arr m ρ c 1).trans (Region1.final (V3 m ρ) c)

/-! ## Against the reference -/

/-- The product the first region leaves is the reference's contraction. -/
theorem prod_eq (x0 : S512x1024.Idx → EReal) (x1 : S1024x64x16.Idx → EReal) :
    Region0.prod x0 (shapeCast S1024x1024 x1 shapeCasts_S1024x64x16_S1024x1024)
      = Cert.ReferenceIdeal.Read.val_main_v1 (F := Ideal) x0 x1 := by
  funext i
  rw [Cert.ReferenceIdeal.Read.val_main_v1_apply]
  unfold Region0.prod Cert.ReferenceIdeal.Read.val_main_v0
  refine Finset.sum_congr rfl fun k _ => ?_
  unfold Region0.prodTerm
  have el : Cert.ReferenceIdeal.Read.lidx_main_v1 i k = ix2 (i 0) k :=
    funext fun a => Fin.ext (by match a with | ⟨0, _⟩ => rfl | ⟨1, _⟩ => rfl)
  have er : Cert.ReferenceIdeal.Read.ridx_main_v1 i k = ix2 k (i 1) :=
    funext fun a => Fin.ext (by match a with | ⟨0, _⟩ => rfl | ⟨1, _⟩ => rfl)
  rw [el, er]
  rfl

/-- The pairwise part of the kernel program's result is the reference's. -/
theorem stat_eq (c : Dev nD) :
    transpose S512x64 [1, 0]
        (shapeCast S64x512 (W4 m ρ c (Proc.devRef .tc main_v6)) shapeCasts_S64x1x512_S64x512)
        transposes_S64x512_S512x64_1_0
      = Cert.ReferenceIdeal.Read.val_main_v14 (F := Ideal) (m ((c : Thread nD τ).loc main_arg0))
          (m ((c : Thread nD τ).loc main_arg1)) := by
  funext i
  obtain ⟨n, b, rfl⟩ : ∃ (n : Fin 512) (b : Fin 64), i = ix2 n b := ⟨i 0, i 1, eq_ix2 i⟩
  rw [Cert.ReferenceIdeal.RefSide.stat_apply]
  refine (transpose_ix2_apply _ _ n b).trans ?_
  refine (Cert.LibGroupLayout.shapeCast_a1b_ab_apply _ _ b n).trans ?_
  rw [arr6 m ρ c]
  show PairSpec.rowStat (fun c' p => (V3 m ρ c main_v5 : S64x16x512.Idx → EReal) (ix3 b c' p)) n = _
  refine congrArg (fun a => PairSpec.rowStat a n) (funext fun c' => funext fun p => ?_)
  rw [in_v5 m ρ c]
  refine (Cert.LibGroupLayout.transpose_ix3_120_apply _ _ b c' p).trans ?_
  rw [arr3 m ρ c, prod_eq]
  rfl

/-- The kernel program's result array is the reference's result term of the same arguments. -/
theorem result_eq (c : Dev nD) :
    (W5 m ρ c (Proc.devRef .tc main_v9) : S512x1088.Idx → EReal)
      = Cert.ReferenceIdeal.Read.val_main_v15 (F := Ideal) (m ((c : Thread nD τ).loc main_arg0))
          (m ((c : Thread nD τ).loc main_arg1)) := by
  rw [out_v9 m ρ c, kept_arg0 m ρ c, stat_eq m ρ c]
  rfl

end Cert.KernelIdeal.Whole

end
-- ==== Proof.lean ====
/-
  The certificate's claim: the three programs run to the end leaving their arguments as launched, the idealized kernel
  program is the kernel program's own text read over the extended reals (the idealization rewrote nothing), and the
  idealized kernel program and the idealized reference, run from memories that agree on the arguments, end with equal
  results.

  The mathematics. With `x` the 512 × 1024 input and `T` the 1024 × 64 × 16 table, both programs form
  `M = x · T` (a 512 × 1024 product re-laid as sample × group × channel), then for every sample `n` and group `b`
      out n b = (∑ over samples j of exp (−∑ over channels c of |M n b c − M j b c|)) − 1,
  and return `x` with `out` appended along the columns. The kernel program computes the product in two row blocks
  with narrowed operands, and the statistic group by group on tables transposed to channel × sample, accumulating
  the sixteen channels one after the other from zero; the reference contracts once and reduces a four-axis array.
  Over the extended reals a narrowing changes no value, zero is neutral for addition, `0 − a = −a`, and a sum over
  sixteen channels is the chain of sixteen additions: the two results are the same function of `x` and `T` entry by
  entry (Proof/KernelValue.lean), whatever the inputs — the finiteness precondition is not used.
-/
import proofs.«114290_j2035814498340_2_alg».proof.Defs
import proofs.«114290_j2035814498340_2_alg».proof.Proof.Gen.Kernel
import proofs.«114290_j2035814498340_2_alg».proof.Proof.Gen.Kernel.Frame
import proofs.«114290_j2035814498340_2_alg».proof.Proof.Gen.KernelIdeal
import proofs.«114290_j2035814498340_2_alg».proof.Proof.Gen.KernelIdeal.Frame
import proofs.«114290_j2035814498340_2_alg».proof.Proof.Gen.ReferenceIdeal
import proofs.«114290_j2035814498340_2_alg».proof.Proof.Gen.ReferenceIdeal.Run
import proofs.«114290_j2035814498340_2_alg».proof.Proof.Gen.ReferenceIdeal.Read
import proofs.«114290_j2035814498340_2_alg».proof.Proof.Gen.Pre_finite_inputs
import proofs.«114290_j2035814498340_2_alg».proof.Proof.KernelValue
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's result term of the kernel side's arguments. -/
theorem algebraic : Cert.algebraic_KernelIdeal_ReferenceIdeal := by
  intro m ρ m' ρ' _ hagree
  refine ⟨fun c => Cert.ReferenceIdeal.Read.val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Whole.result_eq m ρ c), (h c).2⟩)
      (Cert.KernelIdeal.Whole.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
